-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x16384 : Shape := ⟨3, ![16, 256, 16384]⟩
abbrev S_ : Shape := ⟨0, ![]⟩

class Facts : Prop where
  bcast_S_S16x256x16384 : S_.BroadcastsInDim S16x256x16384 (![] : Fin 0 → Fin S16x256x16384.rank)
  reducesTo_S16x256x16384_S_d0_1_2 : S16x256x16384.ReducesTo [0, 1, 2] S_
  h_S_ : 0 < S_.numel

variable [Facts]

def fn {F : FTy → Type} [FloatOps F] (main_arg0 : FVec F S16x256x16384 .f32) : IVec S_ 1 :=
  let main_v0 : FVec F S16x256x16384 .f32 := Host.absf main_arg0
  let main_cst : FVec F S_ .f32 := constant S_ .f32 0x7F800000#32
  let main_v1 : FVec F S16x256x16384 .f32 := broadcastInDim S16x256x16384 ![] bcast_S_S16x256x16384 main_cst
  let main_v2 : IVec S16x256x16384 1 := cmpf .olt main_v0 main_v1
  let main_c : IVec S_ 1 := constantI S_ 1 1#1
  let main_v3 : IVec S_ 1 := (fun x v => Host.reduce IntOp.andi x v reducesTo_S16x256x16384_S_d0_1_2 h_S_) main_v2 main_c
  main_v3
-- ==== Kernel.lean ====
abbrev S16x256x16384 : Shape := ⟨3, ![16, 256, 16384]⟩
abbrev S16x256x4096x4 : Shape := ⟨4, ![16, 256, 4096, 4]⟩
abbrev S4x16x256x4096 : Shape := ⟨4, ![4, 16, 256, 4096]⟩
abbrev S16x256x4096 : Shape := ⟨3, ![16, 256, 4096]⟩
abbrev S4x1x256x1024 : Shape := ⟨4, ![4, 1, 256, 1024]⟩
abbrev S1x256x1024 : Shape := ⟨3, ![1, 256, 1024]⟩
abbrev S1x1x256x1024 : Shape := ⟨4, ![1, 1, 256, 1024]⟩
abbrev S256x1024 : Shape := ⟨2, ![256, 1024]⟩
abbrev S1024 : Shape := ⟨1, ![1024]⟩
abbrev S1x1024 : Shape := ⟨2, ![1, 1024]⟩

abbrev nBuf : Space → Nat
  | .hbm => 4
  | .vmem => 4
  | .smem => 0
  | _ => 0

abbrev bufTy : (tb : Table) → Fin (tcTables nBuf tb) → BufTy
  | .hbm, ⟨0, _⟩ => ⟨S16x256x16384, .f32⟩
  | .hbm, ⟨1, _⟩ => ⟨S16x256x4096x4, .f32⟩
  | .hbm, ⟨2, _⟩ => ⟨S4x16x256x4096, .f32⟩
  | .hbm, ⟨3, _⟩ => ⟨S16x256x4096, .f32⟩
  | .local _ .vmem, ⟨0, _⟩ => ⟨S4x1x256x1024, .f32⟩
  | .local _ .vmem, ⟨1, _⟩ => ⟨S4x1x256x1024, .f32⟩
  | .local _ .vmem, ⟨2, _⟩ => ⟨S1x256x1024, .f32⟩
  | .local _ .vmem, ⟨3, _⟩ => ⟨S1x256x1024, .f32⟩
  | _, _ => ⟨S16x256x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4x1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S16x256x16384_S16x256x4096x4 : S16x256x16384.ShapeCasts S16x256x4096x4
  transposes_S16x256x4096x4_S4x16x256x4096_3_0_1_2 : S16x256x4096x4.Transposes [3, 0, 1, 2] S4x16x256x4096
  inb_S4x1x256x1024_S1x1x256x1024_0_0_0_0 : ∀ a, (![0, 0, 0, 0] : Fin 4 → Nat) a + S1x1x256x1024.size a ≤ S4x1x256x1024.size a
  h_S1x1x256x1024 : 0 < S1x1x256x1024.numel
  shapeCasts_S1x1x256x1024_S256x1024 : S1x1x256x1024.ShapeCasts S256x1024
  reduces_S256x1024_S1024 : S256x1024.Reduces [0] S1024
  shapeCasts_S1024_S1x1024 : S1024.ShapeCasts S1x1024
  broadcasts_S1x1024_S256x1024 : S1x1024.Broadcasts S256x1024
  inb_S4x1x256x1024_S1x1x256x1024_1_0_0_0 : ∀ a, (![1, 0, 0, 0] : Fin 4 → Nat) a + S1x1x256x1024.size a ≤ S4x1x256x1024.size a
  inb_S4x1x256x1024_S1x1x256x1024_2_0_0_0 : ∀ a, (![2, 0, 0, 0] : Fin 4 → Nat) a + S1x1x256x1024.size a ≤ S4x1x256x1024.size a
  inb_S4x1x256x1024_S1x1x256x1024_3_0_0_0 : ∀ a, (![3, 0, 0, 0] : Fin 4 → Nat) a + S1x1x256x1024.size a ≤ S4x1x256x1024.size a
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1x256x1024.size a ≤ S4x16x256x4096.size a
  hwx0_0 : ∀ i : grid0.Coords, EltTy.bits .f32 = 32 ∨ (Rect.block (s := S4x16x256x4096) S4x1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S16x256x4096.size a
  hwx0_1 : ∀ i : grid0.Coords, EltTy.bits .f32 = 32 ∨ (Rect.block (s := S16x256x4096) S1x256x1024.size (cc0_transform_1 i) (hinb0_1 i)).WholeWords (EltTy.packing .f32)

variable [Facts₀]

abbrev win0_0 : Pipeline.Window sig grid0 :=
  Pipeline.Window.ofSpec (Memref.whole main_v1) S4x1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x256x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x256x16384 : Shape := ⟨3, ![16, 256, 16384]⟩
abbrev S4096 : Shape := ⟨1, ![4096]⟩
abbrev S4096x1 : Shape := ⟨2, ![4096, 1]⟩
abbrev S_ : Shape := ⟨0, ![]⟩
abbrev S4 : Shape := ⟨1, ![4]⟩
abbrev S1x4 : Shape := ⟨2, ![1, 4]⟩
abbrev S4096x4 : Shape := ⟨2, ![4096, 4]⟩
abbrev S4096x4x1 : Shape := ⟨3, ![4096, 4, 1]⟩
abbrev S16x256x4096x4 : Shape := ⟨4, ![16, 256, 4096, 4]⟩
abbrev S16x4096x4 : Shape := ⟨3, ![16, 4096, 4]⟩
abbrev S16x1x4096x4 : Shape := ⟨4, ![16, 1, 4096, 4]⟩
abbrev S16x256x4096 : Shape := ⟨3, ![16, 256, 4096]⟩
abbrev S16x1x4096 : Shape := ⟨3, ![16, 1, 4096]⟩
abbrev S16x4096 : Shape := ⟨2, ![16, 4096]⟩

abbrev nBuf : Space → Nat
  | .hbm => 81
  | .vmem => 0
  | .smem => 0
  | _ => 0

abbrev bufTy : (tb : Table) → Fin (tcTables nBuf tb) → BufTy
  | .hbm, ⟨0, _⟩ => ⟨S16x256x16384, .f32⟩
  | .hbm, ⟨1, _⟩ => ⟨S4096, .i32⟩
  | .hbm, ⟨2, _⟩ => ⟨S4096x1, .i32⟩
  | .hbm, ⟨3, _⟩ => ⟨S_, .i32⟩
  | .hbm, ⟨4, _⟩ => ⟨S4096x1, .i32⟩
  | .hbm, ⟨5, _⟩ => ⟨S4096x1, .i32⟩
  | .hbm, ⟨6, _⟩ => ⟨S4, .i32⟩
  | .hbm, ⟨7, _⟩ => ⟨S1x4, .i32⟩
  | .hbm, ⟨8, _⟩ => ⟨S4096x4, .i32⟩
  | .hbm, ⟨9, _⟩ => ⟨S4096x4, .i32⟩
  | .hbm, ⟨10, _⟩ => ⟨S4096x4, .i32⟩
  | .hbm, ⟨11, _⟩ => ⟨S_, .i32⟩
  | .hbm, ⟨12, _⟩ => ⟨S4096x4, .i32⟩
  | .hbm, ⟨13, _⟩ => ⟨S4096x4, .i1⟩
  | .hbm, ⟨14, _⟩ => ⟨S_, .i32⟩
  | .hbm, ⟨15, _⟩ => ⟨S4096x4, .i32⟩
  | .hbm, ⟨16, _⟩ => ⟨S4096x4, .i32⟩
  | .hbm, ⟨17, _⟩ => ⟨S4096x4, .i32⟩
  | .hbm, ⟨18, _⟩ => ⟨S4096x4x1, .i32⟩
  | .hbm, ⟨19, _⟩ => ⟨S16x256x4096x4, .f32⟩
  | .hbm, ⟨20, _⟩ => ⟨S16x256x4096x4, .f32⟩
  | .hbm, ⟨21, _⟩ => ⟨S_, .f32⟩
  | .hbm, ⟨22, _⟩ => ⟨S16x4096x4, .f32⟩
  | .hbm, ⟨23, _⟩ => ⟨S16x1x4096x4, .f32⟩
  | .hbm, ⟨24, _⟩ => ⟨S_, .f32⟩
  | .hbm, ⟨25, _⟩ => ⟨S16x256x4096x4, .f32⟩
  | .hbm, ⟨26, _⟩ => ⟨S16x256x4096x4, .f32⟩
  | .hbm, ⟨27, _⟩ => ⟨S_, .f32⟩
  | .hbm, ⟨28, _⟩ => ⟨S16x1x4096x4, .f32⟩
  | .hbm, ⟨29, _⟩ => ⟨S16x1x4096x4, .f32⟩
  | .hbm, ⟨30, _⟩ => ⟨S_, .f32⟩
  | .hbm, ⟨31, _⟩ => ⟨S16x1x4096x4, .f32⟩
  | .hbm, ⟨32, _⟩ => ⟨S16x1x4096x4, .f32⟩
  | .hbm, ⟨33, _⟩ => ⟨S16x256x4096x4, .f32⟩
  | .hbm, ⟨34, _⟩ => ⟨S16x256x4096x4, .f32⟩
  | .hbm, ⟨35, _⟩ => ⟨S16x256x4096x4, .f32⟩
  | .hbm, ⟨36, _⟩ => ⟨S_, .f32⟩
  | .hbm, ⟨37, _⟩ => ⟨S16x4096x4, .f32⟩
  | .hbm, ⟨38, _⟩ => ⟨S16x1x4096x4, .f32⟩
  | .hbm, ⟨39, _⟩ => ⟨S_, .f32⟩
  | .hbm, ⟨40, _⟩ => ⟨S16x1x4096x4, .f32⟩
  | .hbm, ⟨41, _⟩ => ⟨S16x1x4096x4, .f32⟩
  | .hbm, ⟨42, _⟩ => ⟨S_, .f32⟩
  | .hbm, ⟨43, _⟩ => ⟨S16x1x4096x4, .f32⟩
  | .hbm, ⟨44, _⟩ => ⟨S16x1x4096x4, .f32⟩
  | .hbm, ⟨45, _⟩ => ⟨S_, .f32⟩
  | .hbm, ⟨46, _⟩ => ⟨S_, .f32⟩
  | .hbm, ⟨47, _⟩ => ⟨S16x1x4096x4, .f32⟩
  | .hbm, ⟨48, _⟩ => ⟨S16x1x4096x4, .f32⟩
  | .hbm, ⟨49, _⟩ => ⟨S16x1x4096x4, .f32⟩
  | .hbm, ⟨50, _⟩ => ⟨S_, .f32⟩
  | .hbm, ⟨51, _⟩ => ⟨S16x1x4096x4, .f32⟩
  | .hbm, ⟨52, _⟩ => ⟨S16x1x4096x4, .f32⟩
  | .hbm, ⟨53, _⟩ => ⟨S16x256x4096x4, .f32⟩
  | .hbm, ⟨54, _⟩ => ⟨S16x256x4096x4, .f32⟩
  | .hbm, ⟨55, _⟩ => ⟨S_, .f32⟩
  | .hbm, ⟨56, _⟩ => ⟨S16x256x4096, .f32⟩
  | .hbm, ⟨57, _⟩ => ⟨S_, .f32⟩
  | .hbm, ⟨58, _⟩ => ⟨S16x1x4096, .f32⟩
  | .hbm, ⟨59, _⟩ => ⟨S16x256x4096, .f32⟩
  | .hbm, ⟨60, _⟩ => ⟨S16x256x4096, .f32⟩
  | .hbm, ⟨61, _⟩ => ⟨S16x256x4096, .f32⟩
  | .hbm, ⟨62, _⟩ => ⟨S_, .f32⟩
  | .hbm, ⟨63, _⟩ => ⟨S16x4096, .f32⟩
  | .hbm, ⟨64, _⟩ => ⟨S16x1x4096, .f32⟩
  | .hbm, ⟨65, _⟩ => ⟨S_, .f32⟩
  | .hbm, ⟨66, _⟩ => ⟨S16x1x4096, .f32⟩
  | .hbm, ⟨67, _⟩ => ⟨S16x1x4096, .f32⟩
  | .hbm, ⟨68, _⟩ => ⟨S_, .f32⟩
  | .hbm, ⟨69, _⟩ => ⟨S16x1x4096, .f32⟩
  | .hbm, ⟨70, _⟩ => ⟨S16x1x4096, .f32⟩
  | .hbm, ⟨71, _⟩ => ⟨S_, .f32⟩
  | .hbm, ⟨72, _⟩ => ⟨S_, .f32⟩
  | .hbm, ⟨73, _⟩ => ⟨S16x1x4096, .f32⟩
  | .hbm, ⟨74, _⟩ => ⟨S16x1x4096, .f32⟩
  | .hbm, ⟨75, _⟩ => ⟨S16x1x4096, .f32⟩
  | .hbm, ⟨76, _⟩ => ⟨S_, .f32⟩
  | .hbm, ⟨77, _⟩ => ⟨S16x1x4096, .f32⟩
  | .hbm, ⟨78, _⟩ => ⟨S16x1x4096, .f32⟩
  | .hbm, ⟨79, _⟩ => ⟨S16x256x4096, .f32⟩
  | .hbm, ⟨80, _⟩ => ⟨S16x256x4096, .f32⟩
  | _, _ => ⟨S16x256x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev main_v31 : Ref sig .tc := ⟨.hbm, 41, rfl⟩
abbrev main_cst_7 : Ref sig .tc := ⟨.hbm, 42, rfl⟩
abbrev main_v32 : Ref sig .tc := ⟨.hbm, 43, rfl⟩
abbrev main_v33 : Ref sig .tc := ⟨.hbm, 44, rfl⟩
abbrev main_cst_8 : Ref sig .tc := ⟨.hbm, 45, rfl⟩
abbrev main_call0_v0 : Ref sig .tc := ⟨.hbm, 46, rfl⟩
abbrev main_call0_v1 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_cst_11 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_12 : Ref sig .tc := ⟨.hbm, 62, rfl⟩
abbrev main_v45 : Ref sig .tc := ⟨.hbm, 63, rfl⟩
abbrev main_v46 : Ref sig .tc := ⟨.hbm, 64, rfl⟩
abbrev main_cst_13 : Ref sig .tc := ⟨.hbm, 65, rfl⟩
abbrev main_v47 : Ref sig .tc := ⟨.hbm, 66, rfl⟩
abbrev main_v48 : Ref sig .tc := ⟨.hbm, 67, rfl⟩
abbrev main_cst_14 : Ref sig .tc := ⟨.hbm, 68, rfl⟩
abbrev main_v49 : Ref sig .tc := ⟨.hbm, 69, rfl⟩
abbrev main_v50 : Ref sig .tc := ⟨.hbm, 70, rfl⟩
abbrev main_cst_15 : Ref sig .tc := ⟨.hbm, 71, rfl⟩
abbrev main_call1_v0 : Ref sig .tc := ⟨.hbm, 72, rfl⟩
abbrev main_call1_v1 : Ref sig .tc := ⟨.hbm, 73, rfl⟩
abbrev main_v51 : Ref sig .tc := ⟨.hbm, 74, rfl⟩
abbrev main_v52 : Ref sig .tc := ⟨.hbm, 75, rfl⟩
abbrev main_cst_16 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4_S1x4_1 : S4.BroadcastsInDim S1x4 (![1] : Fin 1 → Fin S1x4.rank)
  bcast_S4096x1_S4096x4_0_1 : S4096x1.BroadcastsInDim S4096x4 (![0, 1] : Fin 2 → Fin S4096x4.rank)
  bcast_S1x4_S4096x4_0_1 : S1x4.BroadcastsInDim S4096x4 (![0, 1] : Fin 2 → Fin S4096x4.rank)
  bcast_S_S4096x4 : S_.BroadcastsInDim S4096x4 (![] : Fin 0 → Fin S4096x4.rank)
  bcast_S4096x4_S4096x4x1_0_1 : S4096x4.BroadcastsInDim S4096x4x1 (![0, 1] : Fin 2 → Fin S4096x4x1.rank)
  reducesTo_S16x256x4096x4_S16x4096x4_d1 : S16x256x4096x4.ReducesTo [1] S16x4096x4
  h_S_ : 0 < S_.numel
  bcast_S16x4096x4_S16x1x4096x4_0_2_3 : S16x4096x4.BroadcastsInDim S16x1x4096x4 (![0, 2, 3] : Fin 3 → Fin S16x1x4096x4.rank)
  bcast_S_S16x256x4096x4 : S_.BroadcastsInDim S16x256x4096x4 (![] : Fin 0 → Fin S16x256x4096x4.rank)
  bcast_S_S16x1x4096x4 : S_.BroadcastsInDim S16x1x4096x4 (![] : Fin 0 → Fin S16x1x4096x4.rank)
  bcast_S16x1x4096x4_S16x256x4096x4_0_1_2_3 : S16x1x4096x4.BroadcastsInDim S16x256x4096x4 (![0, 1, 2, 3] : Fin 4 → Fin S16x256x4096x4.rank)
  reducesTo_S16x256x4096x4_S16x256x4096_d3 : S16x256x4096x4.ReducesTo [3] S16x256x4096
  reducesTo_S16x1x4096x4_S16x1x4096_d3 : S16x1x4096x4.ReducesTo [3] S16x1x4096
  bcast_S16x1x4096_S16x256x4096_0_1_2 : S16x1x4096.BroadcastsInDim S16x256x4096 (![0, 1, 2] : Fin 3 → Fin S16x256x4096.rank)
  reducesTo_S16x256x4096_S16x4096_d1 : S16x256x4096.ReducesTo [1] S16x4096
  bcast_S16x4096_S16x1x4096_0_2 : S16x4096.BroadcastsInDim S16x1x4096 (![0, 2] : Fin 2 → Fin S16x1x4096.rank)
  bcast_S_S16x1x4096 : S_.BroadcastsInDim S16x1x4096 (![] : Fin 0 → Fin S16x1x4096.rank)
  gather_S16x256x16384_S4096x4x1_S16x256x4096x4_01_2_n_n_2_2_162561_wf : GatherDims.WF S16x256x16384 S4096x4x1 S16x256x4096x4 [0, 1] [2] [] [2] [] 2 ![16, 256, 1]

variable [Facts₀]

def gather_S16x256x16384_S4096x4x1_S16x256x4096x4_01_2_n_n_2_2_162561 : GatherDims S16x256x16384 S4096x4x1 S16x256x4096x4 where
  offsetDims := [0, 1]
  collapsedSliceDims := [2]
  operandBatchingDims := []
  startIndicesBatchingDims := []
  startIndexMap := [2]
  indexVectorDim := 2
  sliceSizes := ![16, 256, 1]
  wf := gather_S16x256x16384_S4096x4x1_S16x256x4096x4_01_2_n_n_2_2_162561_wf

class Facts : Prop extends Facts₀ where

variable [Facts]
-- ==== Proof.Midpoint.lean ====
/-
  Hyperbolic average pooling of a sequence of points of the Poincaré ball, in windows of four, through the
  Klein model.

  A point of the ball is a vector `f` of 256 coordinates. It goes to the Klein model as `2 f / (1 + |f|²)`; a
  Klein point `g` has the Lorentz factor `1 / √(max (1 - |g|²) ε)`; the four Klein points of a window are
  averaged with their Lorentz factors as weights, `(∑ⱼ γⱼ gⱼ) / (∑ⱼ γⱼ)`; and the average `a` goes back to the
  ball as `a / (1 + √(max (1 - |a|²) ε))`. Everything is read on the extended reals, with the three float
  constants kept as the words the programs carry: nothing below depends on their values.

  The input array holds 16 sequences of 16384 points; window `i` of a sequence is its points `4 i`, `4 i + 1`,
  `4 i + 2`, `4 i + 3`, and the output array holds, for each sequence and window, the pooled point.
-/
import Idealize.ShloMosaic.PureOps.Ideal
import Idealize.ShloMosaic.Lib.ValueIdx

noncomputable section

namespace Cert.Midpoint

open Idealize.ShloMosaic Idealize.ShloMosaic.ValueIdx

/-- The constants `2`, `1` and the floor `ε` under the square roots. -/
abbrev two : EReal := Ideal.ofBits .f32 0x40000000#32
abbrev one : EReal := Ideal.ofBits .f32 0x3F800000#32
abbrev eps : EReal := Ideal.ofBits .f32 0x33D6BF95#32

/-- The squared Euclidean norm of a point. -/
def normSq (f : Fin 256 → EReal) : EReal := ∑ k, f k * f k

/-- Poincaré ball to Klein model: `2 f / (1 + |f|²)`, coordinate by coordinate. -/
def toKlein (f : Fin 256 → EReal) (c : Fin 256) : EReal := Ideal.div (two * f c) (one + one * normSq f)

/-- `√(max (1 - |g|²) ε)`: the square root both changes of model take, kept off zero by the floor. -/
def root (g : Fin 256 → EReal) : EReal := Ideal.sqrt (max (one - one * normSq g) eps)

/-- The Lorentz factor of a Klein point. -/
def lorentz (g : Fin 256 → EReal) : EReal := Ideal.div one (root g)

/-- The Klein midpoint of a window of four ball points: the average of their Klein images weighted by the
    Lorentz factors. -/
def midpoint (w : Fin 4 → Fin 256 → EReal) (c : Fin 256) : EReal :=
  Ideal.div (∑ j, lorentz (toKlein (w j)) * toKlein (w j) c) (∑ j, lorentz (toKlein (w j)))

/-- Klein model back to the Poincaré ball: `g / (1 + √(max (1 - |g|²) ε))`. -/
def toBall (g : Fin 256 → EReal) (c : Fin 256) : EReal := Ideal.div (g c) (one + root g)

/-- The pooled point of a window. -/
def pool (w : Fin 4 → Fin 256 → EReal) (c : Fin 256) : EReal := toBall (midpoint w) c

/-- Position `4 i + j` of a sequence: point `j` of window `i`. -/
def src (i : Fin 4096) (j : Fin 4) : Fin 16384 := ⟨4 * i.val + j.val, by omega⟩

/-- The whole output array as a function of the whole input array: entry `(b, c, i)` is coordinate `c` of the
    pooled point of window `i` of sequence `b`. -/
def pooled (x : (⟨3, ![16, 256, 16384]⟩ : Shape).Idx → EReal) : (⟨3, ![16, 256, 4096]⟩ : Shape).Idx → EReal :=
  fun o => pool (fun j c' => x (ix3 (o 0) c' (src (o 2) j))) (o 1)

theorem pooled_apply (x : (⟨3, ![16, 256, 16384]⟩ : Shape).Idx → EReal) (b : Fin 16) (c : Fin 256) (i : Fin 4096) :
    pooled x (ix3 b c i) = pool (fun j c' => x (ix3 b c' (src i j))) c := rfl

/-- A sum of four terms taken left to right is the sum over the window. -/
theorem sum_window (a : Fin 4 → EReal) : a 0 + a 1 + a 2 + a 3 = ∑ j, a j := (Fin.sum_univ_four a).symm

end Cert.Midpoint

end
-- ==== Proof.BlockLayout.lean ====
/-
  The steps of the computation that move or collapse a block of 256 rows (the coordinates of a point) by 1024
  columns (the windows of a tile), each read at an entry, on the extended reals.

  * The sum of a block down its rows, laid out as one row: entry `(0, q)` is the sum over the rows `k` of
    the block at `(k, q)`.
  * One row repeated down the 256 rows: entry `(p, q)` is the row at `q`.
  * A block carried with two leading unit axes, and a block given one leading unit axis: the same entries.
-/
import Idealize.ShloMosaic.Lib.ValueIdx
import Idealize.ShloMosaic.Lib.ValueLayout
import Idealize.ShloMosaic.Lib.Pipeline.Value
import Idealize.ShloMosaic.PureOps.Ideal.Laws

noncomputable section

namespace Cert.BlockLayout

open Idealize.ShloMosaic Idealize.ShloMosaic.ValueIdx

abbrev Blk : Shape := ⟨2, ![256, 1024]⟩
abbrev Row : Shape := ⟨2, ![1, 1024]⟩
abbrev Vec1 : Shape := ⟨1, ![1024]⟩

/-- The column sums of a block, as a row: at `(u, q)` the sum over the rows of the block's column `q`. -/
theorem colSum_apply (V : FVec Ideal Blk .f32) (h : Blk.Reduces [0] Vec1) (hφ : FKind.Formats .f32)
    (hacc : (0x00000000#32 : BitVec 32) = 0x00000000#32) (hc : Vec1.ShapeCasts Row) (u : Fin 1) (q : Fin 1024) :
    shapeCast Row (multiReduction .add [0] Vec1 V 0x00000000#32 h hφ hacc) hc (ix2 u q) = ∑ k : Fin 256, V (ix2 k q) := by
  refine (shapeCast_a_1a_apply _ hc u q).trans ?_
  refine (Ideal.multiReduction_add_single V 0x00000000#32 h hφ hacc (ix1 q)).trans ?_
  refine Finset.sum_congr rfl fun k _ => congrArg V ?_
  funext a
  match a with
  | ⟨0, _⟩ => rfl
  | ⟨1, _⟩ => rfl

/-- A row repeated down the block: at `(p, q)` the row's entry `q`. -/
theorem rowDown_apply {α : Type} (r : Row.Idx → α) (h : Row.Broadcasts Blk) (p : Fin 256) (q : Fin 1024) :
    broadcastTo Blk r h (ix2 p q) = r (ix2 (0 : Fin 1) q) :=
  broadcastTo_1b_ab_apply r h p q

/-- A block carried with two leading unit axes has the same entries. -/
theorem dropUnits_apply {α : Type} (v : (⟨4, ![1, 1, 256, 1024]⟩ : Shape).Idx → α)
    (h : (⟨4, ![1, 1, 256, 1024]⟩ : Shape).ShapeCasts Blk) (p : Fin 256) (q : Fin 1024) :
    shapeCast Blk v h (ix2 p q) = v (ix4 (0 : Fin 1) (0 : Fin 1) p q) :=
  shapeCast_apply v h _ _ (by
    rw [Shape.rowMajor_val_four, Shape.rowMajor_val_two]
    show ((0 * 1 + 0) * 256 + p.val) * 1024 + q.val = p.val * 1024 + q.val
    omega)

/-- A block given one leading unit axis has the same entries. -/
theorem addUnit_apply {α : Type} (v : Blk.Idx → α) (h : Blk.ShapeCasts ⟨3, ![1, 256, 1024]⟩) (u : Fin 1) (p : Fin 256)
    (q : Fin 1024) : shapeCast ⟨3, ![1, 256, 1024]⟩ v h (ix3 u p q) = v (ix2 p q) :=
  shapeCast_ab_1ab_apply v h u p q

end Cert.BlockLayout

end
-- ==== Proof.BlockMidpoint.lean ====
/-
  The computation on whole blocks. A block is 256 rows by 1024 columns: column `q` is one point of the ball, its
  256 coordinates down the rows. Each function below does to every column at once what `Cert.Midpoint` does to one
  point, and its entry lemma says so: entry `(p, q)` of the block result is coordinate `p` of the point result
  for column `q`.
-/
import proofs.«156053_j72181220376992_2_alg».proof.Proof.Midpoint
import proofs.«156053_j72181220376992_2_alg».proof.Proof.BlockLayout

noncomputable section

namespace Cert.BlockMidpoint

open Idealize.ShloMosaic Idealize.ShloMosaic.ValueIdx Cert.BlockLayout Cert.Midpoint

variable (hr : Blk.Reduces [0] Vec1) (hc : Vec1.ShapeCasts Row) (hb : Row.Broadcasts Blk)

/-- Column `q` of a block, as a point. -/
abbrev col (W : FVec Ideal Blk .f32) (q : Fin 1024) : Fin 256 → EReal := fun k => W (ix2 k q)

/-- The squared norms of the columns, as a row. -/
def sqRow (W : FVec Ideal Blk .f32) : FVec Ideal Row .f32 :=
  shapeCast Row (multiReduction .add [0] Vec1 (mulf W W) 0x00000000#32 hr (.inl rfl) rfl) hc

theorem sqRow_apply (W : FVec Ideal Blk .f32) (u : Fin 1) (q : Fin 1024) :
    sqRow hr hc W (ix2 u q) = normSq (col W q) := by
  unfold sqRow
  exact (colSum_apply (mulf W W) hr _ _ hc u q).trans rfl

/-- Every column sent to the Klein model. -/
def kleinBlk (W : FVec Ideal Blk .f32) : FVec Ideal Blk .f32 :=
  divf (mulf (broadcast Blk (Scalar.ofBits .f32 0x40000000#32)) W)
    (broadcastTo Blk (addf (broadcast Row (Scalar.ofBits .f32 0x3F800000#32))
      (mulf (broadcast Row (Scalar.ofBits .f32 0x3F800000#32)) (sqRow hr hc W))) hb)

theorem kleinBlk_apply (W : FVec Ideal Blk .f32) (p : Fin 256) (q : Fin 1024) :
    kleinBlk hr hc hb W (ix2 p q) = toKlein (col W q) p := by
  unfold kleinBlk
  rw [divf_apply, rowDown_apply, addf_apply, mulf_apply, mulf_apply, sqRow_apply]
  rfl

theorem col_kleinBlk (W : FVec Ideal Blk .f32) (q : Fin 1024) :
    col (kleinBlk hr hc hb W) q = toKlein (col W q) :=
  funext fun k => kleinBlk_apply hr hc hb W k q

/-- The floored square roots of the columns of a block of Klein points, as a row. -/
def rootRow (K : FVec Ideal Blk .f32) : FVec Ideal Row .f32 :=
  sqrt (maximumf (subf (broadcast Row (Scalar.ofBits .f32 0x3F800000#32))
    (mulf (broadcast Row (Scalar.ofBits .f32 0x3F800000#32)) (sqRow hr hc K)))
    (broadcast Row (Scalar.ofBits .f32 0x33D6BF95#32)))

theorem rootRow_apply (K : FVec Ideal Blk .f32) (u : Fin 1) (q : Fin 1024) :
    rootRow hr hc K (ix2 u q) = root (col K q) := by
  unfold rootRow
  show Ideal.sqrt (max (Ideal.ofBits .f32 0x3F800000#32 - Ideal.ofBits .f32 0x3F800000#32 * sqRow hr hc K (ix2 u q))
    (Ideal.ofBits .f32 0x33D6BF95#32)) = _
  rw [sqRow_apply]
  rfl

/-- The Lorentz factors of the columns, as a row. -/
def lorentzRow (K : FVec Ideal Blk .f32) : FVec Ideal Row .f32 :=
  divf (broadcast Row (Scalar.ofBits .f32 0x3F800000#32)) (rootRow hr hc K)

theorem lorentzRow_apply (K : FVec Ideal Blk .f32) (u : Fin 1) (q : Fin 1024) :
    lorentzRow hr hc K (ix2 u q) = lorentz (col K q) := by
  unfold lorentzRow
  rw [divf_apply, rootRow_apply]
  rfl

/-- The average of four blocks of Klein points weighted by four rows of Lorentz factors: the weighted blocks
    and the weights are summed left to right, then divided column by column. -/
def avgBlk (K0 K1 K2 K3 : FVec Ideal Blk .f32) (g0 g1 g2 g3 : FVec Ideal Row .f32) : FVec Ideal Blk .f32 :=
  divf (addf (addf (addf (mulf (broadcastTo Blk g0 hb) K0) (mulf (broadcastTo Blk g1 hb) K1))
      (mulf (broadcastTo Blk g2 hb) K2)) (mulf (broadcastTo Blk g3 hb) K3))
    (broadcastTo Blk (addf (addf (addf g0 g1) g2) g3) hb)

theorem avgBlk_apply (K0 K1 K2 K3 : FVec Ideal Blk .f32) (g0 g1 g2 g3 : FVec Ideal Row .f32) (p : Fin 256) (q : Fin 1024) :
    avgBlk hb K0 K1 K2 K3 g0 g1 g2 g3 (ix2 p q)
      = Ideal.div (g0 (ix2 0 q) * K0 (ix2 p q) + g1 (ix2 0 q) * K1 (ix2 p q) + g2 (ix2 0 q) * K2 (ix2 p q)
          + g3 (ix2 0 q) * K3 (ix2 p q))
        (g0 (ix2 0 q) + g1 (ix2 0 q) + g2 (ix2 0 q) + g3 (ix2 0 q)) := by
  unfold avgBlk
  rw [divf_apply, rowDown_apply]
  show Ideal.div (broadcastTo Blk g0 hb (ix2 p q) * K0 (ix2 p q) + broadcastTo Blk g1 hb (ix2 p q) * K1 (ix2 p q)
    + broadcastTo Blk g2 hb (ix2 p q) * K2 (ix2 p q) + broadcastTo Blk g3 hb (ix2 p q) * K3 (ix2 p q)) _ = _
  rw [rowDown_apply, rowDown_apply, rowDown_apply, rowDown_apply]
  rfl

/-- The Klein midpoints of the windows: column `q` of the result is the midpoint of columns `q` of the four
    blocks. -/
def midBlk (W0 W1 W2 W3 : FVec Ideal Blk .f32) : FVec Ideal Blk .f32 :=
  avgBlk hb (kleinBlk hr hc hb W0) (kleinBlk hr hc hb W1) (kleinBlk hr hc hb W2) (kleinBlk hr hc hb W3)
    (lorentzRow hr hc (kleinBlk hr hc hb W0)) (lorentzRow hr hc (kleinBlk hr hc hb W1))
    (lorentzRow hr hc (kleinBlk hr hc hb W2)) (lorentzRow hr hc (kleinBlk hr hc hb W3))

/-- The four points of a window, one from each block. -/
abbrev window (W0 W1 W2 W3 : FVec Ideal Blk .f32) (q : Fin 1024) : Fin 4 → Fin 256 → EReal :=
  fun j => col (![W0, W1, W2, W3] j) q

theorem midBlk_apply (W0 W1 W2 W3 : FVec Ideal Blk .f32) (p : Fin 256) (q : Fin 1024) :
    midBlk hr hc hb W0 W1 W2 W3 (ix2 p q) = midpoint (window W0 W1 W2 W3 q) p := by
  unfold midBlk Cert.Midpoint.midpoint
  rw [avgBlk_apply, Fin.sum_univ_four, Fin.sum_univ_four]
  simp only [lorentzRow_apply, kleinBlk_apply, col_kleinBlk]
  rfl

theorem col_midBlk (W0 W1 W2 W3 : FVec Ideal Blk .f32) (q : Fin 1024) :
    col (midBlk hr hc hb W0 W1 W2 W3) q = midpoint (window W0 W1 W2 W3 q) :=
  funext fun k => midBlk_apply hr hc hb W0 W1 W2 W3 k q

/-- Every column of a block of Klein points sent back to the ball, the block given a leading unit axis. -/
def ballBlk (hu : Blk.ShapeCasts ⟨3, ![1, 256, 1024]⟩) (M : FVec Ideal Blk .f32) : FVec Ideal ⟨3, ![1, 256, 1024]⟩ .f32 :=
  shapeCast ⟨3, ![1, 256, 1024]⟩
    (divf M (broadcastTo Blk (addf (broadcast Row (Scalar.ofBits .f32 0x3F800000#32)) (rootRow hr hc M)) hb)) hu

theorem ballBlk_apply (hu : Blk.ShapeCasts ⟨3, ![1, 256, 1024]⟩) (M : FVec Ideal Blk .f32) (u : Fin 1) (p : Fin 256)
    (q : Fin 1024) : ballBlk hr hc hb hu M (ix3 u p q) = toBall (col M q) p := by
  unfold ballBlk
  rw [addUnit_apply, divf_apply, rowDown_apply, addf_apply, rootRow_apply]
  rfl

/-- The pooled block: entry `(0, p, q)` is coordinate `p` of the pooled point of the window made of columns `q`
    of the four blocks. -/
def poolBlk (hu : Blk.ShapeCasts ⟨3, ![1, 256, 1024]⟩) (W0 W1 W2 W3 : FVec Ideal Blk .f32) :
    FVec Ideal ⟨3, ![1, 256, 1024]⟩ .f32 :=
  ballBlk hr hc hb hu (midBlk hr hc hb W0 W1 W2 W3)

theorem poolBlk_apply (hu : Blk.ShapeCasts ⟨3, ![1, 256, 1024]⟩) (W0 W1 W2 W3 : FVec Ideal Blk .f32) (u : Fin 1)
    (p : Fin 256) (q : Fin 1024) :
    poolBlk hr hc hb hu W0 W1 W2 W3 (ix3 u p q) = pool (window W0 W1 W2 W3 q) p := by
  unfold poolBlk Cert.Midpoint.pool
  rw [ballBlk_apply, col_midBlk]

end Cert.BlockMidpoint

end
-- ==== Proof.PoolBody.lean ====
/-
  What the kernel body leaves in its output block, as a function of its input block.

  The input block holds, for one sequence and one tile of 1024 windows, four slabs: slab `j` is the 256 by 1024
  block of the points `j` of those windows. The body's arithmetic on the four slabs is the pooled block of
  `Cert.BlockMidpoint`, so entry `(0, p, q)` of what it stores is coordinate `p` of the pooled point of the
  window whose four points are the columns `q` of the four slabs.
-/
import proofs.«156053_j72181220376992_2_alg».proof.Proof.Gen.KernelIdeal.Frame
import proofs.«156053_j72181220376992_2_alg».proof.Proof.BlockMidpoint

noncomputable section

namespace Cert.PoolBody

open Idealize.ShloMosaic Idealize.ShloMosaic.TcCoe Idealize.SL.Sem Idealize.ShloMosaic.ValueIdx
open Cert.KernelIdeal Cert.KernelIdeal.Gen Cert.BlockLayout Cert.BlockMidpoint Cert.Midpoint

/-- A loaded slab with its two unit axes dropped. -/
abbrev slab (L : Vec Ideal S1x1x256x1024 .f32) : FVec Ideal Blk .f32 :=
  shapeCast S256x1024 L shapeCasts_S1x1x256x1024_S256x1024

/-- The stored value is the pooled block of the four loaded slabs: the body's operations, read in order, are the
    pooled block's. -/
theorem stored_eq (L0 L1 L2 L3 : Vec Ideal S1x1x256x1024 .f32) :
    k0_pay1
      (k0_pay15 (k0_pay11 (k0_pay4 L0) (k0_pay6 L1) (k0_pay7 L1) (k0_pay8 (F := Ideal)))
        (k0_pay12 (k0_pay3 L0) (k0_pay6 L1) (k0_pay7 L1) (k0_pay8 (F := Ideal))) (k0_pay13 L2) (k0_pay14 L2)
        (Scalar.ofBits .f32 0x3F800000#32) L3)
      (k0_pay16 (k0_pay11 (k0_pay4 L0) (k0_pay6 L1) (k0_pay7 L1) (k0_pay8 (F := Ideal)))
        (k0_pay12 (k0_pay3 L0) (k0_pay6 L1) (k0_pay7 L1) (k0_pay8 (F := Ideal))) (k0_pay13 L2) (k0_pay14 L2)
        (Scalar.ofBits .f32 0x3F800000#32) L3)
    = poolBlk reduces_S256x1024_S1024 shapeCasts_S1024_S1x1024 broadcasts_S1x1024_S256x1024
        shapeCasts_S256x1024_S1x256x1024 (slab L0) (slab L1) (slab L2) (slab L3) := rfl

/-- Slab `j` of the input block, read where a load through its rectangle reads it. -/
theorem slab_apply (X : Vec Ideal S4x1x256x1024 .f32) (off : Fin 4 → Nat) (j : Fin 4)
    (hoff : off = ![j.val, 0, 0, 0]) (inb : ∀ a, off a + S1x1x256x1024.size a ≤ S4x1x256x1024.size a)
    (k : Fin 256) (q : Fin 1024) :
    slab (View.ld X (Rect.unit (s := S4x1x256x1024) off S1x1x256x1024.size inb)) (ix2 k q)
      = X (ix4 j (0 : Fin 1) k q) := by
  subst hoff
  refine (dropUnits_apply _ _ k q).trans ?_
  show X ((Rect.unit (s := S4x1x256x1024) ![j.val, 0, 0, 0] S1x1x256x1024.size inb).emb (ix4 (0 : Fin 1) (0 : Fin 1) k q)) = _
  refine congrArg X (funext fun a => Fin.ext ?_)
  match a with
  | ⟨0, _⟩ => show j.val + 1 * 0 = j.val; omega
  | ⟨1, _⟩ => show 0 + 1 * 0 = 0; rfl
  | ⟨2, _⟩ => show 0 + 1 * k.val = k.val; omega
  | ⟨3, _⟩ => show 0 + 1 * q.val = q.val; omega

theorem hz3 : (![0, 0, 0] : Fin 3 → Nat) = fun _ => 0 := funext fun a => by fin_cases a <;> rfl

/-- WHAT THE BODY STORES, at an entry: coordinate `p` of the pooled point of the window whose point `j` is
    column `q` of slab `j`. -/
theorem out_apply (X : Vec Ideal S4x1x256x1024 .f32) (u : Fin 1) (p : Fin 256) (q : Fin 1024) :
    out0_1 X (ix3 u p q) = pool (fun j c' => X (ix4 j (0 : Fin 1) c' q)) p := by
  unfold out0_1
  rw [View.canon_unit_zero hz3]
  refine (congrFun (stored_eq _ _ _ _) _).trans ?_
  refine (poolBlk_apply _ _ _ _ _ _ _ _ u p q).trans ?_
  refine congrArg (fun w => pool w p) (funext fun j => funext fun c' => ?_)
  match j with
  | ⟨0, _⟩ => exact slab_apply X _ 0 rfl _ c' q
  | ⟨1, _⟩ => exact slab_apply X _ 1 rfl _ c' q
  | ⟨2, _⟩ => exact slab_apply X _ 2 rfl _ c' q
  | ⟨3, _⟩ => exact slab_apply X _ 3 rfl _ c' q

end Cert.PoolBody

end
-- ==== Proof.Phases.lean ====
/-
  The phases of the input array, as the region finds them.

  Before the region the input array `[16, 256, 16384]` is regrouped as `[16, 256, 4096, 4]` (position `4 i + j` of a
  sequence becomes point `j` of window `i`) and the last axis is brought to the front, `[4, 16, 256, 4096]`: slab
  `j` holds point `j` of every window. Entry `(j, b, c, i)` of that array is the input at `(b, c, 4 i + j)`.
-/
import proofs.«156053_j72181220376992_2_alg».proof.Proof.Gen.KernelIdeal.Frame
import proofs.«156053_j72181220376992_2_alg».proof.Proof.Midpoint
import Idealize.ShloMosaic.Lib.StableHlo.Run
import Idealize.ShloMosaic.Lib.Pipeline.Value

noncomputable section

namespace Cert.Phases

open Idealize.ShloMosaic Idealize.ShloMosaic.TcCoe Idealize.SL.Sem Idealize.ShloMosaic.ValueIdx Idealize.ShloMosaic.StableHlo
open Cert.KernelIdeal Cert.KernelIdeal.Gen Cert.Midpoint

/-- The regrouped and reordered array at an entry. -/
theorem phases_apply {α : Type} (x : S16x256x16384.Idx → α) (hs : S16x256x16384.ShapeCasts S16x256x4096x4)
    (ht : S16x256x4096x4.Transposes [3, 0, 1, 2] S4x16x256x4096) (j : Fin 4) (b : Fin 16) (c : Fin 256) (i : Fin 4096) :
    transpose S4x16x256x4096 [3, 0, 1, 2] (shapeCast S16x256x4096x4 x hs) ht (ix4 j b c i) = x (ix3 b c (src i j)) := by
  refine (transpose_apply _ _ ht (ix4 j b c i) (ix4 b c i j) (fun a => ?_)).trans ?_
  · match a with
    | ⟨0, _⟩ => rfl
    | ⟨1, _⟩ => rfl
    | ⟨2, _⟩ => rfl
    | ⟨3, _⟩ => rfl
  · refine shapeCast_apply x hs (ix4 b c i j) (ix3 b c (src i j)) ?_
    rw [Shape.rowMajor_val_three, Shape.rowMajor_val_four]
    show (b.val * 256 + c.val) * 16384 + (4 * i.val + j.val) = ((b.val * 256 + c.val) * 4096 + i.val) * 4 + j.val
    omega

variable (m : (ℓ : Loc nD τ sig) → Buf (Elt Ideal) ℓ)

/-- The buffer the input window stages, when the region is entered: the input array regrouped and reordered. -/
theorem staged_eq (c : Dev nD) :
    (V m c main_v1 : S4x16x256x4096.Idx → EReal)
      = transpose S4x16x256x4096 [3, 0, 1, 2]
          (shapeCast S16x256x4096x4 (m ((c : Thread nD τ).loc main_arg0)) shapeCasts_S16x256x16384_S16x256x4096x4)
          transposes_S16x256x4096x4_S4x16x256x4096_3_0_1_2 := by
  dsimp only [Gen.V, Gen.hostOps0]
  after_results
  rfl

/-- So its entry `(j, b, c, i)` is the input at `(b, c, 4 i + j)`. -/
theorem staged_apply (d : Dev nD) (j : Fin 4) (b : Fin 16) (c : Fin 256) (i : Fin 4096) :
    (V m d main_v1 : S4x16x256x4096.Idx → EReal) (ix4 j b c i)
      = (m ((d : Thread nD τ).loc main_arg0) : S16x256x16384.Idx → EReal) (ix3 b c (src i j)) := by
  rw [staged_eq]
  exact phases_apply _ _ _ j b c i

end Cert.Phases

end
-- ==== Proof.KernelPooled.lean ====
/-
  The kernel's output array after the run is the pooled array of its input.

  The grid has a point per sequence `b` and tile `l` of 1024 windows. At that point the input block is the four
  slabs `(j, b, ·, 1024 l + ·)` of the phases array and the output block is `(b, ·, 1024 l + ·)`. The body turns the
  one into the pooled block of the other (`Cert.PoolBody`), the phases array is the input regrouped
  (`Cert.Phases`), so what the point writes back is its block of the pooled array; the 64 output blocks tile the
  output array, so the array ends as the pooled array.
-/
import proofs.«156053_j72181220376992_2_alg».proof.Proof.Gen.KernelIdeal.Value
import proofs.«156053_j72181220376992_2_alg».proof.Proof.PoolBody
import proofs.«156053_j72181220376992_2_alg».proof.Proof.Phases

noncomputable section

namespace Cert.KernelPooled

open Idealize.ShloMosaic Idealize.ShloMosaic.TcCoe Idealize.SL.Sem Idealize.ShloMosaic.ValueIdx
open Cert.KernelIdeal Cert.KernelIdeal.Gen Cert.Midpoint
open Idealize.ShloMosaic.Pipeline (Dat)

/-- The two index maps over the grid: the input block sits at `(0, b, 0, l)` where the output block sits at
    `(b, 0, l)`, with `b < 16` and `l < 4`. -/
theorem idx_facts : ∀ t : Fin cfg0.N,
    win0_0.index t (0 : Fin 4) = 0 ∧ win0_0.index t (1 : Fin 4) = win0_1.index t (0 : Fin 3)
    ∧ win0_0.index t (2 : Fin 4) = 0 ∧ win0_0.index t (3 : Fin 4) = win0_1.index t (2 : Fin 3)
    ∧ win0_1.index t (1 : Fin 3) = 0 ∧ win0_1.index t (0 : Fin 3) < 16 ∧ win0_1.index t (2 : Fin 3) < 4 :=
  (by decide +kernel : ∀ t : Fin grid0.N, _)

/-- Every pair of a sequence and a tile is some point's. -/
theorem idx_onto : ∀ (b : Fin 16) (l : Fin 4), ∃ t : Fin cfg0.N, win0_1.index t = ![b.val, 0, l.val] :=
  (by decide +kernel : ∀ (b : Fin 16) (l : Fin 4), ∃ t : Fin grid0.N, win0_1.index t = ![b.val, 0, l.val])

/-- One entry of an output block against one entry of the pooled array: if the input block's column `q` of slab `j`
    is point `j` of window `o 2` of sequence `o 0`, the body's result at `(·, o 1, q)` is the pooled array at `o`. -/
theorem point_eq (x : S16x256x16384.Idx → EReal) (X : Vec Ideal S4x1x256x1024 .f32) (y : S1x256x1024.Idx)
    (o : S16x256x4096.Idx)
    (hX : ∀ (j : Fin 4) (k : Fin 256) (q : Fin 1024), q.val = (y 2).val →
      X (ix4 j (0 : Fin 1) k q) = x (ix3 (o 0) k (src (o 2) j)))
    (ho : (o 1).val = (y 1).val) : out0_1 X y = pooled x o := by
  obtain ⟨u, p, q, rfl⟩ : ∃ (u : Fin 1) (p : Fin 256) (q : Fin 1024), y = ix3 u p q := ⟨y 0, y 1, y 2, eq_ix3 y⟩
  obtain ⟨b, c, i, rfl⟩ : ∃ (b : Fin 16) (c : Fin 256) (i : Fin 4096), o = ix3 b c i := ⟨o 0, o 1, o 2, eq_ix3 o⟩
  obtain rfl : c = p := Fin.ext ho
  rw [Cert.PoolBody.out_apply, pooled_apply]
  exact congrArg (fun w => pool w c) (funext fun j => funext fun k => hX j k q rfl)

variable (m : (ℓ : Loc nD τ sig) → Buf (Elt Ideal) ℓ) (ρ : Dev nD → PrngReg)

/-- WHAT POINT `t` WRITES BACK is its block of the pooled array of the input. -/
theorem flushed_eq (c : Dev nD) (t : Fin cfg0.N) :
    (dats m 0 c).flushed 1 t
      = ((cfg0.win 1).blk t).view.read (Elt Ideal) (pooled (m ((c : Thread nD τ).loc main_arg0))) := by
  rw [Cert.KernelIdeal.Value.flushed1]
  obtain ⟨e0, e1, e2, e3, e4, e5, e6⟩ := idx_facts t
  funext y
  show out0_1 (iblk m c 0 t) y = pooled (m ((c : Thread nD τ).loc main_arg0)) (((cfg0.win 1).blk t).view.emb y)
  have hy0 : (y 0).val < 1 := (y 0).isLt
  have hy2 : (y 2).val < 1024 := (y 2).isLt
  have ho0 : ((((cfg0.win 1).blk t).view.emb y) 0).val = win0_1.index t (0 : Fin 3) := by
    show win0_1.index t (0 : Fin 3) * 1 + 1 * (y 0).val = _; omega
  have ho2 : ((((cfg0.win 1).blk t).view.emb y) 2).val = win0_1.index t (2 : Fin 3) * 1024 + (y 2).val := by
    show win0_1.index t (2 : Fin 3) * 1024 + 1 * (y 2).val = _; omega
  refine point_eq _ (iblk m c 0 t) y _ (fun j k q hq => ?_) ?_
  · show V m c main_v1 (((cfg0.win 0).blk t).view.emb (ix4 j (0 : Fin 1) k q)) = _
    have hi : ((cfg0.win 0).blk t).view.emb (ix4 j (0 : Fin 1) k q)
        = ix4 j (⟨win0_1.index t (0 : Fin 3), e5⟩ : Fin 16) k
            (⟨win0_1.index t (2 : Fin 3) * 1024 + q.val, by have := q.isLt; omega⟩ : Fin 4096) := by
      funext a; apply Fin.ext
      match a with
      | ⟨0, _⟩ => show win0_0.index t (0 : Fin 4) * 4 + 1 * j.val = j.val; omega
      | ⟨1, _⟩ => show win0_0.index t (1 : Fin 4) * 1 + 1 * 0 = win0_1.index t (0 : Fin 3); omega
      | ⟨2, _⟩ => show win0_0.index t (2 : Fin 4) * 256 + 1 * k.val = k.val; omega
      | ⟨3, _⟩ => show win0_0.index t (3 : Fin 4) * 1024 + 1 * q.val = win0_1.index t (2 : Fin 3) * 1024 + q.val; omega
    rw [hi, Cert.Phases.staged_apply]
    have hA : (⟨win0_1.index t (0 : Fin 3), e5⟩ : Fin 16) = (((cfg0.win 1).blk t).view.emb y) 0 := Fin.ext ho0.symm
    have hB : (⟨win0_1.index t (2 : Fin 3) * 1024 + q.val, by have := q.isLt; omega⟩ : Fin 4096)
        = (((cfg0.win 1).blk t).view.emb y) 2 :=
      Fin.ext (by show win0_1.index t (2 : Fin 3) * 1024 + q.val = _; omega)
    rw [hA, hB]
  · show win0_1.index t (1 : Fin 3) * 256 + 1 * (y 1).val = (y 1).val; omega

/-- An index of the output array is in point `t`'s block iff each coordinate is in the block's range. -/
theorem mem_blk (t : Fin cfg0.N) (i : S16x256x4096.Idx) :
    i ∈ ((cfg0.win 1).blk t).view.set ↔ ∀ a : Fin 3, win0_1.index t a * S1x256x1024.size a ≤ (i a).val
      ∧ (i a).val < win0_1.index t a * S1x256x1024.size a + S1x256x1024.size a := by
  show i ∈ ((View.whole main_v2).slice (win0_1.rect t)).set ↔ _
  rw [View.set_slice_whole, Rect.mem_set_unit]
  exact Iff.rfl

/-- The 64 output blocks cover the output array: entry `(b, c, i)` is in the block of sequence `b` and tile
    `i / 1024`. -/
theorem cover (i : S16x256x4096.Idx) :
    ∃ t : Fin cfg0.N, (cfg0.win 1).flush t = true ∧ i ∈ ((cfg0.win 1).blk t).view.set := by
  have hi0 : (i 0).val < 16 := (i 0).isLt
  have hi1 : (i 1).val < 256 := (i 1).isLt
  have hi2 : (i 2).val < 4096 := (i 2).isLt
  obtain ⟨t, ht⟩ := idx_onto ⟨(i 0).val, hi0⟩ ⟨(i 2).val / 1024, by omega⟩
  have q0 : win0_1.index t (0 : Fin 3) = (i 0).val := congrFun ht 0
  have q1 : win0_1.index t (1 : Fin 3) = 0 := congrFun ht 1
  have q2 : win0_1.index t (2 : Fin 3) = (i 2).val / 1024 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 256 ≤ (i 1).val ∧ (i 1).val < win0_1.index t (1 : Fin 3) * 256 + 256; omega
  | ⟨2, _⟩ => show win0_1.index t (2 : Fin 3) * 1024 ≤ (i 2).val ∧ (i 2).val < win0_1.index t (2 : Fin 3) * 1024 + 1024; omega

/-- THE OUTPUT ARRAY after the run is the pooled array of the input. -/
theorem final (c : Dev nD) : (dats m 0 c).arrAt 1 cfg0.N = pooled (m ((c : Thread nD τ).loc main_arg0)) :=
  (dats m 0 c).arrAt_eq_of_cover 1 _ (fun t _ => flushed_eq m c t) cover

/-- The kernel's run: it ends with the pooled array in its result and the input unchanged. -/
theorem run : θ_run defs (onTc (τ := τ) (main (F := Ideal))) ⟨m, fun _ => 0, ρ⟩ fun r => ∀ c : Dev nD,
      r.2.mem ((c : Thread nD τ).loc main_v2) = pooled (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelPooled

end
-- ==== Proof.RefPooled.lean ====
/-
  The reference program read as hyperbolic average pooling.

  The reference gathers, for each sequence `b`, window `i` and position `j` in the window, the point of the sequence
  at position `4 i + j`, and then takes the Klein image of every gathered point, its Lorentz factor, the weighted
  average over the window and the way back to the ball. Read one element at a time, its last stage is
  `Cert.Midpoint.pooled` of the input array.
-/
import proofs.«156053_j72181220376992_2_alg».proof.Proof.Gen.ReferenceIdeal.Read
import proofs.«156053_j72181220376992_2_alg».proof.Proof.Midpoint
import Idealize.ShloMosaic.Lib.ValueIdx
import Idealize.ShloMosaic.Lib.Pipeline.Value
import Idealize.ShloMosaic.PureOps.Ideal.Laws

noncomputable section

namespace Cert.RefPooled

open Idealize.ShloMosaic Idealize.ShloMosaic.TcCoe Idealize.SL.Sem Idealize.ShloMosaic.ValueIdx Cert.ReferenceIdeal Cert.ReferenceIdeal.Gen Cert.ReferenceIdeal.Read
open Cert.Midpoint

/-! ## The gathered array

The gather's dimension numbers: the operand's axes 0 and 1 are offset axes read whole (slice sizes 16 and 256), its
axis 2 is collapsed and is the one axis the start index names; the start indices are an array over (window, position)
with an index vector of length one. -/

/-- The gather's dimension numbers. -/
abbrev G := gather_S16x256x16384_S4096x4x1_S16x256x4096x4_01_2_n_n_2_2_162561

/-- The gather read at `(b, c, i, j)`: the operand at `(b, c, s)`, where `s` is the start index at `(i, j, 0)` read as a
    signed integer and clamped into `[0, 16383]`. -/
theorem gather_read {α : Type} {w : Nat} (x : S16x256x16384.Idx → α) (idx : IVec S4096x4x1 w)
    (b : Fin 16) (c : Fin 256) (i : Fin 4096) (j : Fin 4) :
    Host.gather G x idx (ix4 b c i j)
      = x (ix3 b c ⟨min (idx (ix3 i j (0 : Fin 1))).toInt.toNat 16383, by omega⟩) := by
  unfold Host.gather
  congr 1
  funext a
  refine Fin.ext ?_
  match a with
  | ⟨0, _⟩ =>
    -- an offset axis: no start, no batching coordinate, the result's coordinate 0
    show G.start (ix4 b c i j) idx 0 + G.batchCoord (ix4 b c i j) 0 + G.offCoord (ix4 b c i j) 0 = b.val
    rw [GatherDims.batchCoord_eq_zero _ _ _ List.not_mem_nil]
    unfold GatherDims.start
    rw [dif_neg (by decide)]
    unfold GatherDims.offCoord
    rw [dif_pos (by decide)]
    simp only [Nat.zero_add]
    rfl
  | ⟨1, _⟩ =>
    -- an offset axis: the result's coordinate 1
    show G.start (ix4 b c i j) idx 1 + G.batchCoord (ix4 b c i j) 1 + G.offCoord (ix4 b c i j) 1 = c.val
    rw [GatherDims.batchCoord_eq_zero _ _ _ List.not_mem_nil]
    unfold GatherDims.start
    rw [dif_neg (by decide)]
    unfold GatherDims.offCoord
    rw [dif_pos (by decide)]
    simp only [Nat.zero_add]
    rfl
  | ⟨2, _⟩ =>
    -- the collapsed axis: the clamped start index alone
    show G.start (ix4 b c i j) idx 2 + G.batchCoord (ix4 b c i j) 2 + G.offCoord (ix4 b c i j) 2 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ G.startIndexMap from List.mem_singleton.mpr rfl)]
    have hsi : G.siIdx (ix4 b c i j) ⟨List.idxOf (2 : Fin 3) G.startIndexMap,
        List.idxOf_lt_length_iff.2 (List.mem_singleton.mpr rfl)⟩ = ix3 i j (0 : Fin 1) := by
      funext e; refine Fin.ext ?_
      match e with
      | ⟨0, _⟩ => rfl
      | ⟨1, _⟩ => rfl
      | ⟨2, _⟩ => rfl
    rw [hsi]
    rfl

/-! ## The start indices

The start index at `(i, j)` is the 32-bit word `i * 4 + j`. It is below `2 ^ 14`, so it is not negative as a signed
integer (the program's select, which adds 16384 to a negative index, keeps it) and its signed value is `4 i + j`. -/

/-- The sum of the two broadcast index arrays at `(i, j)`. -/
theorem v8_word (i : Fin 4096) (j : Fin 4) :
    val_main_v8 (F := Ideal) (ix2 i j) = BitVec.ofNat 32 i.val * 4#32 + BitVec.ofNat 32 j.val := by
  rw [val_main_v8_apply, val_main_v6_apply, val_main_v7_apply, val_main_v3_apply, val_main_v1_apply,
    val_main_v2_apply, val_main_c_apply, val_main_v0_apply, val_main_v5_apply, val_main_v4_apply]
  rfl

/-- The word `i * 4 + j` does not wrap: as a natural number it is `4 i + j`. -/
theorem word_toNat (i : Fin 4096) (j : Fin 4) :
    (BitVec.ofNat 32 i.val * 4#32 + BitVec.ofNat 32 j.val).toNat = 4 * i.val + j.val := by
  have hi := i.isLt
  have hj := j.isLt
  bv_omega

/-- Its signed value is the same number: `4 i + j < 2 ^ 31`. -/
theorem word_toInt_eq (i : Fin 4096) (j : Fin 4) :
    (BitVec.ofNat 32 i.val * 4#32 + BitVec.ofNat 32 j.val).toInt = ((4 * i.val + j.val : Nat) : Int) := by
  have h := word_toNat i j
  have hi := i.isLt
  have hj := j.isLt
  generalize (BitVec.ofNat 32 i.val * 4#32 + BitVec.ofNat 32 j.val) = w at h ⊢
  rw [BitVec.toInt_eq_toNat_of_lt (by rw [h]; omega), h]

/-- So it is not below zero as a signed integer. -/
theorem word_not_neg (i : Fin 4096) (j : Fin 4) :
    (BitVec.ofNat 32 i.val * 4#32 + BitVec.ofNat 32 j.val).slt 0#32 = false := by
  rw [BitVec.slt_eq_decide, word_toInt_eq, BitVec.toInt_zero, decide_eq_false_iff_not]
  omega

theorem word_toInt (i : Fin 4096) (j : Fin 4) :
    (BitVec.ofNat 32 i.val * 4#32 + BitVec.ofNat 32 j.val).toInt.toNat = 4 * i.val + j.val := by
  rw [word_toInt_eq]
  omega

/-- The start index array at `(i, j, 0)`: the select keeps the word `i * 4 + j`. -/
theorem start_word (i : Fin 4096) (j : Fin 4) (u : Fin 1) :
    val_main_v14 (F := Ideal) (ix3 i j u) = BitVec.ofNat 32 i.val * 4#32 + BitVec.ofNat 32 j.val := by
  have e : idx_main_v14 (ix3 i j u) = ix2 i j := by
    funext a; match a with | ⟨0, _⟩ => rfl | ⟨1, _⟩ => rfl
  have hc : IntOp.cmpi CmpIPredicate.slt (BitVec.ofNat 32 i.val * 4#32 + BitVec.ofNat 32 j.val) 0#32 = 0#1 := by
    show BitVec.ofBool ((BitVec.ofNat 32 i.val * 4#32 + BitVec.ofNat 32 j.val).slt 0#32) = 0#1
    rw [word_not_neg]; rfl
  rw [val_main_v14_apply, e, val_main_v13_apply, val_main_v10_apply, v8_word, val_main_v9_apply,
    val_main_c_0_apply, hc, select_zero]

/-- The gathered array at `(b, c, i, j)` is the input at `(b, c, 4 i + j)`: the clamp into `[0, 16383]` does nothing. -/
theorem gathered (x0 : (⟨S16x256x16384, .f32⟩ : BufTy).Contents (Elt Ideal)) (b : Fin 16) (c : Fin 256) (i : Fin 4096)
    (j : Fin 4) : val_main_v15 (F := Ideal) x0 (ix4 b c i j) = x0 (ix3 b c (src i j)) := by
  unfold val_main_v15
  rw [gather_read]
  refine congrArg x0 (congrArg (ix3 b c) (Fin.ext ?_))
  show min (val_main_v14 (F := Ideal) (ix3 i j (0 : Fin 1))).toInt.toNat 16383 = 4 * i.val + j.val
  rw [start_word, word_toInt]
  have hi := i.isLt
  have hj := j.isLt
  omega

/-! ## The Klein image of a gathered point -/

/-- Window `i` of sequence `b`: its four points, each a vector of 256 coordinates. -/
abbrev W (x0 : (⟨S16x256x16384, .f32⟩ : BufTy).Contents (Elt Ideal)) (b : Fin 16) (i : Fin 4096) :
    Fin 4 → Fin 256 → EReal := fun j c' => x0 (ix3 b c' (src i j))

/-- The sum of squares over the coordinates of point `j` of the window is its squared norm. -/
theorem normSq_read (x0 : (⟨S16x256x16384, .f32⟩ : BufTy).Contents (Elt Ideal)) (b : Fin 16) (i : Fin 4096) (j : Fin 4) :
    val_main_v17 (F := Ideal) x0 (ix3 b i j) = normSq (W x0 b i j) := by
  rw [val_main_v17_apply, val_main_cst_apply, Ideal.ofBits_def, Ideal.ofBits_zero_f32, zero_add]
  unfold normSq
  refine Finset.sum_congr rfl fun k _ => ?_
  have e : idx_main_v17 (ix3 b i j) k = ix4 b k i j := by
    funext a; match a with | ⟨0, _⟩ => rfl | ⟨1, _⟩ => rfl | ⟨2, _⟩ => rfl | ⟨3, _⟩ => rfl
  rw [e, val_main_v16_apply, gathered]
  rfl

/-- The quotient `2 f / (1 + |f|²)` at coordinate `c` of point `j`. -/
theorem klein_read (x0 : (⟨S16x256x16384, .f32⟩ : BufTy).Contents (Elt Ideal)) (b : Fin 16) (c : Fin 256) (i : Fin 4096)
    (j : Fin 4) : val_main_v26 (F := Ideal) x0 (ix4 b c i j) = toKlein (W x0 b i j) c := by
  have e25 : idx_main_v25 (ix4 b c i j) = ix4 b (0 : Fin 1) i j := by
    funext a; match a with | ⟨0, _⟩ => rfl | ⟨1, _⟩ => rfl | ⟨2, _⟩ => rfl | ⟨3, _⟩ => rfl
  have e18 : idx_main_v18 (ix4 b (0 : Fin 1) i j) = ix3 b i j := by
    funext a; match a with | ⟨0, _⟩ => rfl | ⟨1, _⟩ => rfl | ⟨2, _⟩ => rfl
  rw [val_main_v26_apply, val_main_v20_apply, val_main_v19_apply, val_main_cst_2_apply, gathered,
    val_main_v25_apply, e25, val_main_v24_apply, val_main_v23_apply, val_main_cst_4_apply, val_main_v22_apply,
    val_main_v21_apply, val_main_cst_3_apply, val_main_v18_apply, e18, normSq_read]
  rfl

/-! ## The Lorentz factor of a Klein point -/

/-- The sum of squares over the coordinates of the Klein image of point `j` is its squared norm. -/
theorem kleinNormSq_read (x0 : (⟨S16x256x16384, .f32⟩ : BufTy).Contents (Elt Ideal)) (b : Fin 16) (i : Fin 4096)
    (j : Fin 4) : val_main_v28 (F := Ideal) x0 (ix3 b i j) = normSq (toKlein (W x0 b i j)) := by
  rw [val_main_v28_apply, val_main_cst_5_apply, Ideal.ofBits_def, Ideal.ofBits_zero_f32, zero_add]
  unfold normSq
  refine Finset.sum_congr rfl fun k _ => ?_
  have e : idx_main_v28 (ix3 b i j) k = ix4 b k i j := by
    funext a; match a with | ⟨0, _⟩ => rfl | ⟨1, _⟩ => rfl | ⟨2, _⟩ => rfl | ⟨3, _⟩ => rfl
  rw [e, val_main_v27_apply, klein_read]
  rfl

/-- `1 / √(max ε (1 - |g|²))` is the Lorentz factor of `g`: the maximum does not mind the order of its operands. -/
theorem lorentz_read (x0 : (⟨S16x256x16384, .f32⟩ : BufTy).Contents (Elt Ideal)) (b : Fin 16) (u : Fin 1) (i : Fin 4096)
    (j : Fin 4) : val_main_v37 (F := Ideal) x0 (ix4 b u i j) = lorentz (toKlein (W x0 b i j)) := by
  have e29 : idx_main_v29 (ix4 b u i j) = ix3 b i j := by
    funext a; match a with | ⟨0, _⟩ => rfl | ⟨1, _⟩ => rfl | ⟨2, _⟩ => rfl
  rw [val_main_v37_apply, val_main_v36_apply, val_main_cst_9_apply, val_main_v35_apply, val_main_v34_apply,
    val_main_call0_v1_apply, val_main_call0_v0_apply, val_main_cst_8_apply, val_main_v33_apply, val_main_v32_apply,
    val_main_cst_7_apply, val_main_v31_apply, val_main_v30_apply, val_main_cst_6_apply, val_main_v29_apply, e29,
    kleinNormSq_read]
  show Ideal.div one (Ideal.sqrt (max eps (one - one * normSq (toKlein (W x0 b i j))))) = _
  rw [max_comm]
  rfl

/-! ## The Klein midpoint of a window -/

/-- The sum over the window of the Lorentz factors times coordinate `c` of the Klein images. -/
theorem weighted_read (x0 : (⟨S16x256x16384, .f32⟩ : BufTy).Contents (Elt Ideal)) (b : Fin 16) (c : Fin 256)
    (i : Fin 4096) :
    val_main_v40 (F := Ideal) x0 (ix3 b c i)
      = ∑ j, lorentz (toKlein (W x0 b i j)) * toKlein (W x0 b i j) c := by
  rw [val_main_v40_apply, val_main_cst_10_apply, Ideal.ofBits_def, Ideal.ofBits_zero_f32, zero_add]
  refine Finset.sum_congr rfl fun k _ => ?_
  have e : idx_main_v40 (ix3 b c i) k = ix4 b c i k := by
    funext a; match a with | ⟨0, _⟩ => rfl | ⟨1, _⟩ => rfl | ⟨2, _⟩ => rfl | ⟨3, _⟩ => rfl
  have e38 : idx_main_v38 (ix4 b c i k) = ix4 b (0 : Fin 1) i k := by
    funext a; match a with | ⟨0, _⟩ => rfl | ⟨1, _⟩ => rfl | ⟨2, _⟩ => rfl | ⟨3, _⟩ => rfl
  rw [e, val_main_v39_apply, val_main_v38_apply, e38, lorentz_read, klein_read]
  rfl

/-- The sum over the window of the Lorentz factors. -/
theorem weights_read (x0 : (⟨S16x256x16384, .f32⟩ : BufTy).Contents (Elt Ideal)) (b : Fin 16) (u : Fin 1) (i : Fin 4096) :
    val_main_v41 (F := Ideal) x0 (ix3 b u i) = ∑ j, lorentz (toKlein (W x0 b i j)) := by
  rw [val_main_v41_apply, val_main_cst_11_apply, Ideal.ofBits_def, Ideal.ofBits_zero_f32, zero_add]
  refine Finset.sum_congr rfl fun k _ => ?_
  have e : idx_main_v41 (ix3 b u i) k = ix4 b u i k := by
    funext a; match a with | ⟨0, _⟩ => rfl | ⟨1, _⟩ => rfl | ⟨2, _⟩ => rfl | ⟨3, _⟩ => rfl
  rw [e, lorentz_read]

/-- Their quotient is the midpoint. -/
theorem midpoint_read (x0 : (⟨S16x256x16384, .f32⟩ : BufTy).Contents (Elt Ideal)) (b : Fin 16) (c : Fin 256)
    (i : Fin 4096) : val_main_v43 (F := Ideal) x0 (ix3 b c i) = midpoint (W x0 b i) c := by
  have e42 : idx_main_v42 (ix3 b c i) = ix3 b (0 : Fin 1) i := by
    funext a; match a with | ⟨0, _⟩ => rfl | ⟨1, _⟩ => rfl | ⟨2, _⟩ => rfl
  rw [val_main_v43_apply, weighted_read, val_main_v42_apply, e42, weights_read]
  rfl

/-! ## Back to the ball -/

/-- The sum of squares over the coordinates of the midpoint is its squared norm. -/
theorem midNormSq_read (x0 : (⟨S16x256x16384, .f32⟩ : BufTy).Contents (Elt Ideal)) (b : Fin 16) (i : Fin 4096) :
    val_main_v45 (F := Ideal) x0 (ix2 b i) = normSq (midpoint (W x0 b i)) := by
  rw [val_main_v45_apply, val_main_cst_12_apply, Ideal.ofBits_def, Ideal.ofBits_zero_f32, zero_add]
  unfold normSq
  refine Finset.sum_congr rfl fun k _ => ?_
  have e : idx_main_v45 (ix2 b i) k = ix3 b k i := by
    funext a; match a with | ⟨0, _⟩ => rfl | ⟨1, _⟩ => rfl | ⟨2, _⟩ => rfl
  rw [e, val_main_v44_apply, midpoint_read]
  rfl

/-- The reference's last stage at `(b, c, i)`: the pooled point of window `i` of sequence `b`, coordinate `c`. -/
theorem pool_read (x0 : (⟨S16x256x16384, .f32⟩ : BufTy).Contents (Elt Ideal)) (b : Fin 16) (c : Fin 256)
    (i : Fin 4096) : val_main_v56 (F := Ideal) x0 (ix3 b c i) = pool (W x0 b i) c := by
  have e55 : idx_main_v55 (ix3 b c i) = ix3 b (0 : Fin 1) i := by
    funext a; match a with | ⟨0, _⟩ => rfl | ⟨1, _⟩ => rfl | ⟨2, _⟩ => rfl
  have e46 : idx_main_v46 (ix3 b (0 : Fin 1) i) = ix2 b i := by
    funext a; match a with | ⟨0, _⟩ => rfl | ⟨1, _⟩ => rfl
  rw [val_main_v56_apply, midpoint_read, val_main_v55_apply, e55, val_main_v54_apply, val_main_v53_apply,
    val_main_cst_16_apply, val_main_v52_apply, val_main_v51_apply, val_main_call1_v1_apply, val_main_call1_v0_apply,
    val_main_cst_15_apply, val_main_v50_apply, val_main_v49_apply, val_main_cst_14_apply, val_main_v48_apply,
    val_main_v47_apply, val_main_cst_13_apply, val_main_v46_apply, e46, midNormSq_read]
  show Ideal.div (midpoint (W x0 b i) c)
    (one + Ideal.sqrt (max eps (one - one * normSq (midpoint (W x0 b i))))) = _
  rw [max_comm]
  rfl

/-- The reference program computes the pooled array. -/
theorem ref_pooled (x0 : (⟨Cert.ReferenceIdeal.S16x256x16384, .f32⟩ : BufTy).Contents (Elt Ideal)) :
    Cert.ReferenceIdeal.Read.val_main_v56 (F := Ideal) x0 = Cert.Midpoint.pooled x0 := by
  funext o
  obtain ⟨b, c, i, rfl⟩ : ∃ (b : Fin 16) (c : Fin 256) (i : Fin 4096), o = ix3 b c i :=
    ⟨o 0, o 1, o 2, eq_ix3 (n0 := 16) (n1 := 256) (n2 := 4096) o⟩
  exact (pool_read x0 b c i).trans (pooled_apply x0 b c i).symm

end Cert.RefPooled

end
-- ==== Proof.lean ====
/-
  Hyperbolic average pooling in windows of four: the kernel against its reference, on the extended reals.

  Both programs take 16 sequences of 16384 points of the Poincaré ball (256 coordinates each) and give, for every
  window of four consecutive points, their Klein midpoint brought back to the ball: each point goes to the Klein
  model as `2 f / (1 + |f|²)`, gets the Lorentz factor `1 / √(max (1 - |g|²) ε)`, the four Klein points are averaged
  with those weights, and the average `a` returns as `a / (1 + √(max (1 - |a|²) ε))`. `Cert.Midpoint.pooled` is
  that function of the whole input array, entry by entry.

  The kernel regroups the sequence into four phases (point `j` of every window), works on tiles of 1024 windows of
  one sequence, sums the four weighted points and the four weights one after the other, and takes every norm as a
  sum down the rows of a block; the reference gathers the windows by computed positions `4 i + j` and sums over the
  window and over the coordinates with reductions that start from zero, and writes its maxima with the floor
  first. On the extended reals these are the same sums and the same maxima: addition is commutative and
  associative there, zero is neutral, and `max` is symmetric; nothing else is used, so the inputs' finiteness
  never enters. The two sides meet in `pooled`:
  `Cert.KernelPooled.run` (the kernel's result array is `pooled` of the input) and `Cert.RefPooled.ref_pooled`
  (so is the reference's last stage).

  The idealization rewrote no operation, so that conjunct is `True`; the frames are the generated ones, the
  reference's being its run with the result dropped.
-/
import proofs.«156053_j72181220376992_2_alg».proof.Defs
import proofs.«156053_j72181220376992_2_alg».proof.Proof.Gen.Kernel
import proofs.«156053_j72181220376992_2_alg».proof.Proof.Gen.Kernel.Skeleton
import proofs.«156053_j72181220376992_2_alg».proof.Proof.Gen.Kernel.Launch
import proofs.«156053_j72181220376992_2_alg».proof.Proof.Gen.Kernel.Points
import proofs.«156053_j72181220376992_2_alg».proof.Proof.Gen.Kernel.Frame
import proofs.«156053_j72181220376992_2_alg».proof.Proof.Gen.KernelIdeal
import proofs.«156053_j72181220376992_2_alg».proof.Proof.Gen.KernelIdeal.Skeleton
import proofs.«156053_j72181220376992_2_alg».proof.Proof.Gen.KernelIdeal.Launch
import proofs.«156053_j72181220376992_2_alg».proof.Proof.Gen.KernelIdeal.Points
import proofs.«156053_j72181220376992_2_alg».proof.Proof.Gen.KernelIdeal.Frame
import proofs.«156053_j72181220376992_2_alg».proof.Proof.Gen.ReferenceIdeal
import proofs.«156053_j72181220376992_2_alg».proof.Proof.Gen.Pre_finite_inputs
import proofs.«156053_j72181220376992_2_alg».proof.Proof.Gen.KernelIdeal.Value
import proofs.«156053_j72181220376992_2_alg».proof.Proof.Gen.ReferenceIdeal.Run
import proofs.«156053_j72181220376992_2_alg».proof.Proof.Gen.ReferenceIdeal.Read
import proofs.«156053_j72181220376992_2_alg».proof.Proof.KernelPooled
import proofs.«156053_j72181220376992_2_alg».proof.Proof.RefPooled
import Idealize.ShloMosaic.Adequacy
import Idealize.ShloMosaic.Init

noncomputable section

namespace Cert.Proof

open Idealize.ShloMosaic Idealize.SL.Sem

/-- The kernel as printed runs and leaves its input as it was. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From inputs that agree, the kernel's result array and the reference's are both the pooled array of the input. -/
theorem algebraic : Cert.algebraic_KernelIdeal_ReferenceIdeal := by
  intro m ρ m' ρ' _ hagree
  refine ⟨fun c => Cert.Midpoint.pooled
      (m ((c.tc : Thread Cert.KernelIdeal.nD Cert.KernelIdeal.τ).loc Cert.KernelIdeal.main_arg0)),
    Cert.KernelPooled.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v56_eq, Cert.RefPooled.ref_pooled, hagree c]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
